-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x4096 .f32) (main_arg2 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096 : Shape := ⟨1, ![4096]⟩
abbrev S1x4096 : Shape := ⟨2, ![1, 4096]⟩
abbrev S2048x512 : Shape := ⟨2, ![2048, 512]⟩
abbrev S1024x512 : Shape := ⟨2, ![1024, 512]⟩
abbrev S1x1024 : Shape := ⟨2, ![1, 1024]⟩
abbrev S2048x1024 : Shape := ⟨2, ![2048, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S4096x4096, .f32⟩
  | .local _ .vmem, ⟨0, _⟩ => ⟨S2048x512, .f32⟩
  | .local _ .vmem, ⟨1, _⟩ => ⟨S2048x512, .f32⟩
  | .local _ .vmem, ⟨2, _⟩ => ⟨S1024x512, .f32⟩
  | .local _ .vmem, ⟨3, _⟩ => ⟨S1024x512, .f32⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S4096x4096.size a
  hwx0_0 : ∀ i : grid0.Coords, EltTy.bits .f32 = 32 ∨ (Rect.block (s := S4096x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S4096x4096.size a
  hwx0_3 : ∀ i : grid0.Coords, EltTy.bits .f32 = 32 ∨ (Rect.block (s := S4096x4096) S2048x1024.size (cc0_transform_3 i) (hinb0_3 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096 : Shape := ⟨1, ![4096]⟩
abbrev S1x4096 : Shape := ⟨2, ![1, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S1x4096, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.LibDotRows.lean ====
import Idealize.ShloMosaic.Lib.ValueIdx
import Idealize.ShloMosaic.PureOps.Ideal.Laws

/-!
# A product of rows with rows, read at an index

For dimension numbers that contract the second axis of BOTH operands and have no batch axis, the product
`[M, K] × [N, K] → [M, N]` (an einsum `mk,nk->mn`: the right operand is used transposed without being
transposed) at the index `(p, q)` is the plain sum `∑ k < K, l (p, k) · r (q, k)` over the extended reals —
for the matrix unit's product into a zero accumulator and for the host's `dot_general` alike, whatever
`M`, `K`, `N` are. Entry `(p, q)` depends on row `p` of the left operand and row `q` of the right one only,
so a program that cuts the left operand into row tiles computes the same entries as one that does not.
-/

noncomputable section

namespace Cert.LibDotRows

open Idealize.ShloMosaic Idealize.ShloMosaic.ValueIdx
open scoped BigOperators

/-- The dimension numbers of a rows-with-rows product: axis 1 of the left operand against axis 1 of the right
    operand, axis 0 of each kept (the left one first), no batch axis. -/
structure RowsRows {M K N : Nat} (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

section Spelt

variable {M K N : Nat}
  (wf : DotDims.WF (⟨2, ![M, K]⟩ : Shape) (⟨2, ![N, K]⟩ : Shape) (⟨2, ![M, N]⟩ : Shape) [1] [1] [0] [0] [] [])

/-- The record with its six lists written out. -/
abbrev spelt : DotDims ⟨2, ![M, K]⟩ ⟨2, ![N, K]⟩ ⟨2, ![M, N]⟩ := ⟨[1], [1], [0], [0], [], [], wf⟩

/-- The left operand is read in the result's row. -/
theorem spelt_lhs_row (j : (⟨2, ![M, N]⟩ : Shape).Idx) (k : (spelt wf).contr.Idx) :
    ((spelt wf).lhsIdx j k 0).val = (j 0).val := by
  unfold DotDims.lhsIdx
  rw [dif_neg (show ¬ (0 : Fin 2) ∈ (spelt wf).lhsBatch from List.not_mem_nil),
    dif_pos (show (0 : Fin 2) ∈ (spelt wf).lhsNonContracting from List.mem_singleton.mpr rfl)]
  rfl

/-- The right operand is read in the ROW numbered by the result's column. -/
theorem spelt_rhs_row (j : (⟨2, ![M, N]⟩ : Shape).Idx) (k : (spelt wf).contr.Idx) :
    ((spelt wf).rhsIdx j k 0).val = (j 1).val := by
  unfold DotDims.rhsIdx
  rw [dif_neg (show ¬ (0 : Fin 2) ∈ (spelt wf).rhsBatch from List.not_mem_nil),
    dif_pos (show (0 : Fin 2) ∈ (spelt wf).rhsNonContracting from List.mem_singleton.mpr rfl)]
  rfl

/-- The contraction's sum, re-indexed by the one contracted coordinate. -/
theorem spelt_sum (l : (⟨2, ![M, K]⟩ : Shape).Idx → EReal) (r : (⟨2, ![N, K]⟩ : Shape).Idx → EReal) (p : Fin M) (q : Fin N) :
    ∑ k : (spelt wf).contr.Idx, l ((spelt wf).lhsIdx (ix2 p q) k) * r ((spelt wf).rhsIdx (ix2 p q) k)
      = ∑ k : Fin K, l (ix2 p k) * r (ix2 q k) := by
  rw [← Equiv.sum_comp (contrEquiv1 (spelt wf) K rfl rfl).symm]
  refine Finset.sum_congr rfl fun k _ => ?_
  have hk := contrEquiv1_symm_val (spelt wf) K rfl rfl k
  have el : (spelt wf).lhsIdx (ix2 p q) ((contrEquiv1 (spelt wf) K rfl rfl).symm k) = ix2 p k :=
    funext fun a => Fin.ext (by
      match a with
      | ⟨0, _⟩ => exact spelt_lhs_row wf _ _
      | ⟨1, _⟩ => exact ((spelt wf).lhsIdx_val_of_single rfl _ _).trans hk)
  have er : (spelt wf).rhsIdx (ix2 p q) ((contrEquiv1 (spelt wf) K rfl rfl).symm k) = ix2 q k :=
    funext fun a => Fin.ext (by
      match a with
      | ⟨0, _⟩ => exact spelt_rhs_row wf _ _
      | ⟨1, _⟩ => exact ((spelt wf).rhsIdx_val_of_single rfl _ _).trans hk)
  rw [el, er]

end Spelt

/-- The sum over the contraction index of a rows-with-rows product is the sum over `k < K` of the left operand at
    `(p, k)` times the right operand at `(q, k)`. -/
theorem sum_contr {M K N : Nat} (d : DotDims ⟨2, ![M, K]⟩ ⟨2, ![N, K]⟩ ⟨2, ![M, N]⟩) (h : RowsRows d)
    (l : (⟨2, ![M, K]⟩ : Shape).Idx → EReal) (r : (⟨2, ![N, K]⟩ : Shape).Idx → EReal) (p : Fin M) (q : Fin N) :
    ∑ k : d.contr.Idx, l (d.lhsIdx (ix2 p q) k) * r (d.rhsIdx (ix2 p q) k) = ∑ k : Fin K, l (ix2 p k) * r (ix2 q k) := by
  obtain ⟨lc, rc, ln, rn, lb, rb, wf⟩ := d
  obtain ⟨h1, h2, h3, h4, h5, h6⟩ := h
  dsimp only at h1 h2 h3 h4 h5 h6
  subst h1 h2 h3 h4 h5 h6
  exact spelt_sum wf l r p q

/-- The matrix unit's product into a zero accumulator, at an index: the plain sum over the shared second axis. -/
theorem matmul_zero_apply {M K N : Nat} {φ₁ φ₂ : FTy} (d : DotDims ⟨2, ![M, K]⟩ ⟨2, ![N, K]⟩ ⟨2, ![M, N]⟩) (h : RowsRows d)
    (prec : Option ContractPrecision) (lhs : FVec Ideal ⟨2, ![M, K]⟩ φ₁) (rhs : FVec Ideal ⟨2, ![N, K]⟩ φ₂) (p : Fin M) (q : Fin N) :
    FloatOps.matmul d prec lhs rhs (constant ⟨2, ![M, N]⟩ .f32 0x00000000#32) (ix2 p q)
      = ∑ k : Fin K, lhs (ix2 p k) * rhs (ix2 q k) :=
  (Ideal.matmul_constant_zero_apply d prec lhs rhs (ix2 p q)).trans (sum_contr d h lhs rhs p q)

/-- The host's `dot_general` at an index: the same sum, whatever the schedule key. -/
theorem dotGeneral_apply {M K N : Nat} {φ₁ φ₂ : FTy} (d : DotDims ⟨2, ![M, K]⟩ ⟨2, ![N, K]⟩ ⟨2, ![M, N]⟩) (h : RowsRows d)
    (prec : Option ContractPrecision) (sched : HostSchedule) (lhs : FVec Ideal ⟨2, ![M, K]⟩ φ₁) (rhs : FVec Ideal ⟨2, ![N, K]⟩ φ₂)
    (p : Fin M) (q : Fin N) :
    FloatOps.dotGeneral d prec sched lhs rhs (ix2 p q) = ∑ k : Fin K, lhs (ix2 p k) * rhs (ix2 q k) :=
  (Ideal.dotGeneral_apply d prec sched lhs rhs (ix2 p q)).trans (sum_contr d h lhs rhs p q)

end Cert.LibDotRows

end
-- ==== Proof.Payload.lean ====
import proofs.«108534_j3977139716222_2_alg».proof.Proof.Gen.KernelIdeal.Skeleton
import proofs.«108534_j3977139716222_2_alg».proof.Proof.LibDotRows
import Idealize.ShloMosaic.Lib.Pipeline.Value
import Idealize.ShloMosaic.Lib.ValueLayout

/-!
# The body's three stored values, read at an index over the extended reals

The body stores three values into the output tile: a zero tile (at the first step of a reduction run), the tile it
finds plus the product of the step's `[2048, 512]` block of `x` with the step's `[1024, 512]` block of `W`, rows against
rows (at every step), and `max (tile + bias row, 0)` (at the last step). Over the extended reals a change of float
format is the identity, so at `(p, q)` the second is the tile's entry plus `∑ k < 512, x (p, k) · W (q, k)`.
-/

noncomputable section

namespace Cert.KernelIdeal.Pay

open Cert.KernelIdeal Cert.KernelIdeal.Gen Idealize.ShloMosaic Idealize.ShloMosaic.ValueIdx
open scoped BigOperators

/-- The zero tile is `0` everywhere. -/
theorem pay1_apply (y : S2048x1024.Idx) : k0_pay1 (F := Ideal) y = 0 := by
  unfold k0_pay1
  show Ideal.ofBits .f32 0x00000000#32 = 0
  exact Ideal.ofBits_zero_f32

/-- The step's product contracts the second axis of both blocks. -/
theorem rowsRows : Cert.LibDotRows.RowsRows dot_S2048x512_S1024x512_S2048x1024_1_1_0_0_n_n :=
  ⟨rfl, rfl, rfl, rfl, rfl, rfl⟩

/-- The accumulating store at `(p, q)`: what the tile held there plus the blocks' row-by-row product. -/
theorem pay2_apply (v3 : Vec Ideal S2048x512 .f32) (v5 : Vec Ideal S1024x512 .f32) (v7 : Vec Ideal S2048x1024 .f32)
    (p : Fin 2048) (q : Fin 1024) :
    k0_pay2 (F := Ideal) v3 v5 v7 (ix2 p q) = v7 (ix2 p q) + ∑ k : Fin 512, v3 (ix2 p k) * v5 (ix2 q k) := by
  unfold k0_pay2
  rw [addf_apply, shapeCast_self]
  refine congrArg (v7 (ix2 p q) + ·) ?_
  exact Cert.LibDotRows.matmul_zero_apply _ rowsRows none (truncf .bf16 v3 bitsLt_bf16_f32)
    (truncf .bf16 v5 bitsLt_bf16_f32) p q

/-- The last store at `(p, q)`: the tile's entry plus the bias row's entry at `q`, cut off below at `0`. -/
theorem pay3_apply (v15 : Vec Ideal S2048x1024 .f32) (v17 : Vec Ideal S1x1024 .f32) (p : Fin 2048) (q : Fin 1024) :
    k0_pay3 (F := Ideal) v15 v17 (ix2 p q) = max (v15 (ix2 p q) + v17 (ix2 (0 : Fin 1) q)) 0 := by
  unfold k0_pay3
  rw [maximumf_apply, addf_apply, shapeCast_self, shapeCast_self, broadcast_apply, broadcastTo_1b_ab_apply]
  show max _ (Ideal.ofBits .f32 0x00000000#32) = _
  rw [Ideal.ofBits_zero_f32]

end Cert.KernelIdeal.Pay

end
-- ==== Proof.Blocks.lean ====
import proofs.«108534_j3977139716222_2_alg».proof.Proof.Gen.KernelIdeal.Frame.Runs
import Idealize.ShloMosaic.Lib.Pipeline.Value
import Idealize.ShloMosaic.Lib.ValueLayout
import Idealize.ShloMosaic.Lib.StableHlo.Run

/-!
# The input blocks of a grid point, read at an index

The grid is `2 × 4 × 8`, its points numbered row-major: point `t` is row tile `t / 32`, column tile `t / 8 % 4`,
reduction step `t % 8`. At point `t` the kernel sees rows `2048·(t / 32) …` and columns `512·(t % 8) …` of `x`, rows
`1024·(t / 8 % 4) …` and the same columns of `W`, and entries `1024·(t / 8 % 4) …` of the bias, which the host has
re-laid as one row `[1, 4096]` before the call.
-/

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ)

/-- The printed index maps over the grid's points: which tile of each array a point sees. -/
theorem idx_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val / 8 % 4 :=
  (by decide +kernel : ∀ t : Fin grid0.N, _)

/-- The block of `x` at point `t`, at `(p, k)`: `x` at row `2048·(t / 32) + p`, column `512·(t % 8) + k`. -/
theorem x_block (c : Dev nD) (t : Fin cfg0.N) (p : Fin 2048) (k : Fin 512) (r k' : Fin 4096)
    (hr : r.val = 2048 * (t.val / 32) + p.val) (hk : k'.val = 512 * (t.val % 8) + k.val) :
    (iblk m c 0 t : Vec F S2048x512 .f32) (ix2 p k) = m ((c : Thread nD τ).loc main_arg0) (ix2 r k') := by
  obtain ⟨e0, e1, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 2048 + 1 * p.val = r.val; rw [e0, hr]; omega
  | ⟨1, _⟩ => show win0_0.index t 1 * 512 + 1 * k.val = k'.val; rw [e1, hk]; omega

/-- The block of `W` at point `t`, at `(q, k)`: `W` at row `1024·(t / 8 % 4) + q`, column `512·(t % 8) + k`. -/
theorem w_block (c : Dev nD) (t : Fin cfg0.N) (q : Fin 1024) (k : Fin 512) (o k' : Fin 4096)
    (ho : o.val = 1024 * (t.val / 8 % 4) + q.val) (hk : k'.val = 512 * (t.val % 8) + k.val) :
    (iblk m c 1 t : Vec F S1024x512 .f32) (ix2 q k) = m ((c : Thread nD τ).loc main_arg1) (ix2 o k') := by
  obtain ⟨-, -, e0, e1, -⟩ := idx_facts t
  unfold iblk
  rw [View.read_apply]
  show V m c main_arg1 _ = m (c.tc.loc main_arg1) _
  rw [V_main_arg1]
  congr 1
  funext a
  apply Fin.ext
  match a with
  | ⟨0, _⟩ => show win0_1.index t 0 * 1024 + 1 * q.val = o.val; rw [e0, ho]; omega
  | ⟨1, _⟩ => show win0_1.index t 1 * 512 + 1 * k.val = k'.val; rw [e1, hk]; omega

/-- The bias row the region finds: the host's re-laying of the bias vector as `[1, 4096]`. -/
theorem bias_row (c : Dev nD) :
    (V m c main_v0 : S1x4096.Idx → Elt F .f32)
      = shapeCast S1x4096 (m ((c : Thread nD τ).loc main_arg2)) shapeCasts_S4096_S1x4096 := by
  dsimp only [V, hostOps0]
  after_results
  rfl

/-- The block of the bias row at point `t`, at `(0, q)`: the bias at `1024·(t / 8 % 4) + q`. -/
theorem b_block (c : Dev nD) (t : Fin cfg0.N) (q : Fin 1024) (o : Fin 4096)
    (ho : o.val = 1024 * (t.val / 8 % 4) + q.val) :
    (iblk m c 2 t : Vec F S1x1024 .f32) (ix2 (0 : Fin 1) q) = m ((c : Thread nD τ).loc main_arg2) (ix1 o) := by
  obtain ⟨-, -, -, -, e0, e1⟩ := idx_facts t
  unfold iblk
  rw [View.read_apply]
  show V m c main_v0 _ = m (c.tc.loc main_arg2) _
  rw [bias_row, ← shapeCast_a_1a_apply (m (c.tc.loc main_arg2)) shapeCasts_S4096_S1x4096 (0 : Fin 1) o]
  congr 1
  funext a
  apply Fin.ext
  match a with
  | ⟨0, _⟩ => show win0_2.index t 0 * 1 + 1 * 0 = 0; rw [e0]
  | ⟨1, _⟩ => show win0_2.index t 1 * 1024 + 1 * q.val = o.val; rw [e1, ho]; omega

end Cert.KernelIdeal.Blocks

end
-- ==== Proof.BlockSum.lean ====
import Mathlib.Algebra.BigOperators.Fin
import Mathlib.Logic.Equiv.Fin.Basic

/-!
# A sum cut into consecutive blocks

A sum over the first `J·K` naturals is the sum, over the `J` consecutive blocks of length `K`, of each block's own
sum: term number `K·s + kk` is the `kk`-th term of block `s`. Only commutativity and associativity of the addition are
used, so the law holds in any commutative monoid — in particular on the extended reals, infinite terms included.
-/

open scoped BigOperators

namespace Cert.BlockSum

/-- `∑ k < J·K, g k = ∑ s < J, ∑ kk < K, g (K·s + kk)`. -/
theorem sum_blocks {β : Type*} [AddCommMonoid β] (J K : ℕ) (g : ℕ → β) :
    ∑ k : Fin (J * K), g k.val = ∑ s ∈ Finset.range J, ∑ kk : Fin K, g (K * s + kk.val) := by
  rw [Finset.sum_range (fun s => ∑ kk : Fin K, g (K * s + kk.val)),
    ← Equiv.sum_comp finProdFinEquiv (fun k : Fin (J * K) => g k.val), Fintype.sum_prod_type]
  refine Finset.sum_congr rfl fun s _ => Finset.sum_congr rfl fun kk _ => ?_
  rw [finProdFinEquiv_apply_val, Nat.add_comm]

end Cert.BlockSum
-- ==== Proof.Spec.lean ====
import Idealize.ShloMosaic.Lib.ValueIdx
import Idealize.ShloMosaic.PureOps.Ideal

/-!
# A dense layer followed by a cut-off at zero, entry by entry

For `x : [4096, 4096]` (a batch of rows), `W : [4096, 4096]` (one row of weights per output) and a bias
`b : [4096]`, entry `(r, q)` of the result is `max (∑ k < 4096, x (r, k) · W (q, k) + b q, 0)` over the extended reals.
-/

noncomputable section

namespace Cert.ReluDense

open Idealize.ShloMosaic Idealize.ShloMosaic.ValueIdx
open scoped BigOperators

/-- Entry `(r, q)`: row `r` of `x` against row `q` of `W`, plus the bias at `q`, cut off below at `0`. -/
def value (x W : (⟨2, ![4096, 4096]⟩ : Shape).Idx → EReal) (b : (⟨1, ![4096]⟩ : Shape).Idx → EReal)
    (r q : Fin 4096) : EReal :=
  max ((∑ k : Fin 4096, x (ix2 r k) * W (ix2 q k)) + b (ix1 q)) 0

end Cert.ReluDense

end
-- ==== Proof.Fold.lean ====
import proofs.«108534_j3977139716222_2_alg».proof.Proof.Gen.KernelIdeal.Value
import proofs.«108534_j3977139716222_2_alg».proof.Proof.Payload
import proofs.«108534_j3977139716222_2_alg».proof.Proof.Blocks
import proofs.«108534_j3977139716222_2_alg».proof.Proof.BlockSum
import proofs.«108534_j3977139716222_2_alg».proof.Proof.Spec

/-!
# The kernel's output, entry by entry

An output tile is visited at eight consecutive grid points, one per block of 512 columns of `x` and `W`. The first
point zeroes the tile and adds its block's product, each later one adds its own, and the last one then adds the bias
row and cuts off at zero. So the tile ends at `max ((0 + ∑ s < 8, d s) + bias, 0)`, where `d s` at `(p, q)` is
`∑ kk < 512, x (row, 512·s + kk) · W (col, 512·s + kk)`. The eight block sums are the one sum over `k < 4096` cut into
consecutive blocks, which uses only that addition is commutative and associative: no entry has to be finite.
-/

noncomputable section

namespace Cert.KernelIdeal.Fold

open Cert.KernelIdeal Cert.KernelIdeal.Gen Idealize.ShloMosaic Idealize.ShloMosaic.TcCoe Idealize.SL.Sem
open Idealize.ShloMosaic.ValueIdx
open scoped BigOperators

variable (m : (ℓ : Loc nD τ sig) → Buf (Elt Ideal) ℓ)

/-- The product of a `[2048, 512]` block with a `[1024, 512]` block, rows against rows, at a place `y` of the tile. -/
def blockDot (v3 : Vec Ideal S2048x512 .f32) (v5 : Vec Ideal S1024x512 .f32) (y : S2048x1024.Idx) : EReal :=
  ∑ k : Fin 512, v3 (ix2 (⟨(y 0).val, idx2_lt0 y⟩ : Fin 2048) k) * v5 (ix2 (⟨(y 1).val, idx2_lt1 y⟩ : Fin 1024) k)

theorem blockDot_ix2 (v3 : Vec Ideal S2048x512 .f32) (v5 : Vec Ideal S1024x512 .f32) (p : Fin 2048) (q : Fin 1024) :
    blockDot v3 v5 (ix2 p q) = ∑ k : Fin 512, v3 (ix2 p k) * v5 (ix2 q k) := rfl

/-- What point `n` adds to the tile at a place `y`: the product of its blocks of `x` and `W`. (Past the grid,
    nothing: those values are never used.) -/
def addend (c : Dev nD) (n : ℕ) (y : S2048x1024.Idx) : EReal :=
  if h : n < cfg0.N then blockDot (iblk m c 0 ⟨n, h⟩) (iblk m c 1 ⟨n, h⟩) y else 0

theorem addend_ix2 (c : Dev nD) (n : ℕ) (h : n < cfg0.N) (p : Fin 2048) (q : Fin 1024) :
    addend m c n (ix2 p q) = blockDot (iblk m c 0 ⟨n, h⟩) (iblk m c 1 ⟨n, h⟩) (ix2 p q) := by
  unfold addend
  rw [dif_pos h]

/-- The first point of a run leaves `0` plus its addend. -/
theorem reset_apply (c : Dev nD) (b : ℕ) (h : b < cfg0.N) (y : S2048x1024.Idx) :
    Value.reset3 m c b h y = (fun _ => (0 : EReal)) y + addend m c b y := by
  obtain ⟨p, q, rfl⟩ : ∃ (p : Fin 2048) (q : Fin 1024), y = ix2 p q := ⟨y 0, y 1, eq_ix2 y⟩
  rw [addend_ix2 m c b h p q, blockDot_ix2]
  unfold Value.reset3
  refine (Pay.pay2_apply (iblk m c 0 ⟨b, h⟩) (iblk m c 1 ⟨b, h⟩) (k0_pay1 (F := Ideal)) p q).trans ?_
  rw [Pay.pay1_apply]

/-- A point strictly inside a run adds its addend to what the point before left. -/
theorem step_mid_apply (c : Dev nD) (n : ℕ) (h : n < cfg0.N) (acc : Vec Ideal S2048x1024 .f32) (y : S2048x1024.Idx)
    (h0 : ¬n % 8 = 0) (h7 : ¬n % 8 = 7) :
    Value.step3 m c n h acc y = acc y + addend m c n y := by
  obtain ⟨p, q, rfl⟩ : ∃ (p : Fin 2048) (q : Fin 1024), y = ix2 p q := ⟨y 0, y 1, eq_ix2 y⟩
  rw [addend_ix2 m c n h p q, blockDot_ix2]
  unfold Value.step3
  rw [if_pos ⟨h0, h7⟩]
  exact Pay.pay2_apply (iblk m c 0 ⟨n, h⟩) (iblk m c 1 ⟨n, h⟩) acc p q

/-- The last point of a run adds its addend, then the bias row, and cuts off at zero. -/
theorem step_last_apply (c : Dev nD) (n : ℕ) (h : n < cfg0.N) (acc : Vec Ideal S2048x1024 .f32)
    (p : Fin 2048) (q : Fin 1024) (h7 : n % 8 = 7) :
    Value.step3 m c n h acc (ix2 p q)
      = max ((acc (ix2 p q) + addend m c n (ix2 p q))
          + (iblk m c 2 ⟨n, h⟩ : Vec Ideal S1x1024 .f32) (ix2 (0 : Fin 1) q)) 0 := by
  rw [addend_ix2 m c n h p q, blockDot_ix2]
  unfold Value.step3
  rw [if_neg (fun hh => hh.2 h7), if_pos ⟨by omega, h7⟩]
  refine (Pay.pay3_apply (k0_pay2 (iblk m c 0 ⟨n, h⟩) (iblk m c 1 ⟨n, h⟩) acc) (iblk m c 2 ⟨n, h⟩) p q).trans ?_
  rw [Pay.pay2_apply (iblk m c 0 ⟨n, h⟩) (iblk m c 1 ⟨n, h⟩) acc p q]

/-- THE RUN'S FOLD at `(p, q)`: the eight addends, the bias row's entry, the cut-off. -/
theorem fold_apply (c : Dev nD) (R : ℕ) (h : 8 * R + 7 < cfg0.N) (p : Fin 2048) (q : Fin 1024) :
    Pipeline.accAt (Value.reset3 m c) (Value.step3 m c) (8 * R) 7 h (ix2 p q)
      = max ((∑ s ∈ Finset.range 8, addend m c (8 * R + s) (ix2 p q))
          + (iblk m c 2 ⟨8 * R + 7, h⟩ : Vec Ideal S1x1024 .f32) (ix2 (0 : Fin 1) q)) 0 := by
  rw [Pipeline.accAt_succ, step_last_apply m c (8 * R + (6 + 1)) h _ p q (by omega),
    Pipeline.accAt_add_apply (Value.reset3 m c) (Value.step3 m c) (fun _ => (0 : EReal)) (addend m c) (8 * R) 6
      (fun hb y => reset_apply m c (8 * R) hb y)
      (fun n hn acc y h1 h2 => step_mid_apply m c n hn acc y (by omega) (by omega))
      6 le_rfl (Nat.lt_of_succ_lt h) (ix2 p q),
    zero_add, ← Finset.sum_range_succ (fun s => addend m c (8 * R + s) (ix2 p q)) 7]

end Cert.KernelIdeal.Fold

end
-- ==== Proof.Whole.lean ====
import proofs.«108534_j3977139716222_2_alg».proof.Proof.Fold

/-!
# The whole output array

Entry `(r, q)` of the output lies in the tile of row tile `r / 2048` and column tile `q / 1024`, at the place
`(r % 2048, q % 1024)`; that tile's run is number `4·(r / 2048) + q / 1024`. Its eight points see columns
`512·s … 512·s + 511` of row `r` of `x` and of row `q` of `W`, `s = 0 … 7`, so the eight addends are the one sum over
`k < 4096` cut into blocks, and the last point's bias entry is `b q`.
-/

noncomputable section

namespace Cert.KernelIdeal.Whole

open Cert.KernelIdeal Cert.KernelIdeal.Gen Idealize.ShloMosaic Idealize.ShloMosaic.TcCoe Idealize.SL.Sem
open Idealize.ShloMosaic.ValueIdx
open scoped BigOperators

/-- Term `k` of the contraction of row `r` of `x` with row `q` of `W`, as a function of every natural (zero past the
    last column). -/
def term (x W : (⟨2, ![4096, 4096]⟩ : Shape).Idx → EReal) (r q : Fin 4096) (k : ℕ) : EReal :=
  if hk : k < 4096 then x (ix2 r ⟨k, hk⟩) * W (ix2 q ⟨k, hk⟩) else 0

theorem term_lt (x W : (⟨2, ![4096, 4096]⟩ : Shape).Idx → EReal) (r q : Fin 4096) (k : ℕ) (hk : k < 4096) :
    term x W r q k = x (ix2 r ⟨k, hk⟩) * W (ix2 q ⟨k, hk⟩) := dif_pos hk

/-- The contraction over `k < 4096` is eight consecutive block sums of 512 terms each. -/
theorem sum_cut (x W : (⟨2, ![4096, 4096]⟩ : Shape).Idx → EReal) (r q : Fin 4096) :
    ∑ k : Fin 4096, x (ix2 r k) * W (ix2 q k)
      = ∑ s ∈ Finset.range 8, ∑ kk : Fin 512, term x W r q (512 * s + kk.val) := by
  have hsum : ∑ k : Fin 4096, x (ix2 r k) * W (ix2 q k) = ∑ k : Fin 4096, term x W r q k.val :=
    Finset.sum_congr rfl fun k _ => (term_lt x W r q k.val k.isLt).symm
  have hcut : ∑ k : Fin 4096, term x W r q k.val
      = ∑ s ∈ Finset.range 8, ∑ kk : Fin 512, term x W r q (512 * s + kk.val) :=
    Cert.BlockSum.sum_blocks 8 512 (term x W r q)
  rw [hsum, hcut]

variable (m : (ℓ : Loc nD τ sig) → Buf (Elt Ideal) ℓ)

/-- The fold of run `R` at the place `(p, q')` of its tile is the dense layer's entry `(r, q)`, when `R` is the run
    of `(r, q)`'s tile and `(p, q')` its place there. -/
theorem run_apply (c : Dev nD) (R : ℕ) (h : 8 * R + 7 < cfg0.N) (r q : Fin 4096) (p : Fin 2048) (q' : Fin 1024)
    (hR : R = 4 * (r.val / 2048) + q.val / 1024) (hp : p.val = r.val % 2048) (hq : q'.val = q.val % 1024) :
    Pipeline.accAt (Value.reset3 m c) (Value.step3 m c) (8 * R) 7 h (ix2 p q')
      = Cert.ReluDense.value (m ((c : Thread nD τ).loc main_arg0)) (m ((c : Thread nD τ).loc main_arg1))
          (m ((c : Thread nD τ).loc main_arg2)) r q := by
  have hr4 := r.isLt
  have hq4 := q.isLt
  have hN : cfg0.N = 64 := N_0
  rw [Fold.fold_apply m c R h p q']
  unfold Cert.ReluDense.value
  -- the bias entry
  rw [Blocks.b_block m c ⟨8 * R + 7, h⟩ q' q (by show q.val = 1024 * ((8 * R + 7) / 8 % 4) + q'.val; omega)]
  -- the eight addends are the one sum, cut into blocks
  refine congrArg (fun z => max (z + _) 0) ?_
  rw [sum_cut]
  refine Finset.sum_congr rfl fun s hs => ?_
  have hs8 : s < 8 := Finset.mem_range.mp hs
  have hpt : 8 * R + s < cfg0.N := by omega
  rw [Fold.addend_ix2 m c (8 * R + s) hpt p q', Fold.blockDot_ix2]
  refine Finset.sum_congr rfl fun kk _ => ?_
  have hkk := kk.isLt
  have hk : 512 * s + kk.val < 4096 := by omega
  rw [term_lt _ _ r q (512 * s + kk.val) hk]
  exact congrArg₂ (· * ·)
    (Blocks.x_block m c ⟨8 * R + s, hpt⟩ p kk r ⟨512 * s + kk.val, hk⟩
      (by show r.val = 2048 * ((8 * R + s) / 32) + p.val; omega)
      (by show 512 * s + kk.val = 512 * ((8 * R + s) % 8) + kk.val; omega))
    (Blocks.w_block m c ⟨8 * R + s, hpt⟩ q' kk q ⟨512 * s + kk.val, hk⟩
      (by show q.val = 1024 * ((8 * R + s) / 8 % 4) + q'.val; omega)
      (by show 512 * s + kk.val = 512 * ((8 * R + s) % 8) + kk.val; omega))

/-- THE OUTPUT ARRAY after the run, at `(r, q)`: the dense layer's entry. -/
theorem G3_apply (c : Dev nD) (r q : Fin 4096) :
    Value.G3 m c (ix2 r q)
      = Cert.ReluDense.value (m ((c : Thread nD τ).loc main_arg0)) (m ((c : Thread nD τ).loc main_arg1))
          (m ((c : Thread nD τ).loc main_arg2)) r q := by
  have hr4 := r.isLt
  have hq4 := q.isLt
  have hN : cfg0.N = 64 := N_0
  have hrun : Value.run3Of (ix2 r q) = 4 * (r.val / 2048) + q.val / 1024 := by
    show 4 * (r.val / 2048 - 0) + 1 * (q.val / 1024 - 0) = _
    omega
  have hloc : Value.loc3Of (ix2 r q)
      = ix2 (⟨r.val % 2048, Nat.mod_lt _ (by decide)⟩ : Fin 2048) (⟨q.val % 1024, Nat.mod_lt _ (by decide)⟩ : Fin 1024) :=
    funext fun a => Fin.ext (by match a with | ⟨0, _⟩ => rfl | ⟨1, _⟩ => rfl)
  unfold Value.G3
  rw [dif_pos (by rw [hrun, hN]; omega), hloc]
  exact run_apply m c (Value.run3Of (ix2 r q)) _ r q _ _ hrun rfl rfl

end Cert.KernelIdeal.Whole

end
-- ==== Proof.RefRead.lean ====
import proofs.«108534_j3977139716222_2_alg».proof.Proof.Gen.ReferenceIdeal.Read
import proofs.«108534_j3977139716222_2_alg».proof.Proof.Spec
import Idealize.ShloMosaic.PureOps.Ideal.Laws

/-!
# The reference, entry by entry

The reference computes `x · Wᵀ` as one contraction over the second axis of both operands, adds the bias spread
down the rows, and takes the maximum with a zero array. Read at `(r, q)` stage by stage this is
`max (∑ k, x (r, k) · W (q, k) + b q, 0)`.
-/

noncomputable section

namespace Cert.ReferenceIdeal.RefValue

open Cert.ReferenceIdeal Cert.ReferenceIdeal.Gen Cert.ReferenceIdeal.Read Idealize.ShloMosaic
open Idealize.ShloMosaic.ValueIdx
open scoped BigOperators

/-- The contraction reads the left operand in the result's row, at column `k`. -/
theorem lidx_eq (r q k : Fin 4096) : lidx_main_v0 (ix2 r q) k = ix2 r k :=
  funext fun a => Fin.ext (by match a with | ⟨0, _⟩ => rfl | ⟨1, _⟩ => rfl)

/-- The contraction reads the right operand in the ROW numbered by the result's column, at column `k`. -/
theorem ridx_eq (r q k : Fin 4096) : ridx_main_v0 (ix2 r q) k = ix2 q k :=
  funext fun a => Fin.ext (by match a with | ⟨0, _⟩ => rfl | ⟨1, _⟩ => rfl)

/-- The bias spread over the rows reads, at `(r, q)`, the bias at `q`. -/
theorem bidx_eq (r q : Fin 4096) : idx_main_v1 (idx_main_v2 (ix2 r q)) = ix1 q :=
  funext fun a => Fin.ext (by match a with | ⟨0, _⟩ => rfl)

/-- The reference's result at `(r, q)`. -/
theorem ref_apply (x0 x1 : (⟨S4096x4096, .f32⟩ : BufTy).Contents (Elt Ideal))
    (x2 : (⟨S4096, .f32⟩ : BufTy).Contents (Elt Ideal)) (r q : Fin 4096) :
    val_main_v5 (F := Ideal) x0 x1 x2 (ix2 r q) = Cert.ReluDense.value x0 x1 x2 r q := by
  rw [val_main_v5_apply, val_main_v3_apply, val_main_v0_apply, val_main_v2_apply, val_main_v1_apply,
    val_main_v4_apply, val_main_cst_apply]
  simp only [lidx_eq, ridx_eq, bidx_eq]
  show max (_ + _) (Ideal.ofBits .f32 0x00000000#32) = _
  rw [Ideal.ofBits_zero_f32]
  rfl

end Cert.ReferenceIdeal.RefValue

end
-- ==== Proof.Bridge.lean ====
import proofs.«108534_j3977139716222_2_alg».proof.Proof.Whole
import proofs.«108534_j3977139716222_2_alg».proof.Proof.RefRead

/-!
# The two programs compute one function

Entry by entry, the reference's result on the kernel's argument arrays and the kernel's output array are both
`max (∑ k, x (r, k) · W (q, k) + b q, 0)`.
-/

noncomputable section

namespace Cert.Bridge

open Idealize.ShloMosaic Idealize.ShloMosaic.TcCoe Idealize.SL.Sem Idealize.ShloMosaic.ValueIdx

/-- The reference's last stage on the kernel's arguments is the kernel's output array. -/
theorem result_eq (m : (ℓ : Loc Cert.KernelIdeal.nD Cert.KernelIdeal.τ Cert.KernelIdeal.sig) → Buf (Elt Ideal) ℓ)
    (c : Dev Cert.KernelIdeal.nD) :
    Cert.ReferenceIdeal.Read.val_main_v5 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
      = Cert.KernelIdeal.Value.G3 m c := by
  funext i
  obtain ⟨r, q, rfl⟩ : ∃ (r q : Fin 4096), i = ix2 r q := ⟨i 0, i 1, eq_ix2 i⟩
  rw [Cert.ReferenceIdeal.RefValue.ref_apply]
  exact (Cert.KernelIdeal.Whole.G3_apply m c r q).symm

end Cert.Bridge

end
-- ==== Proof.lean ====
/-
  A dense layer with a cut-off at zero, `z = max (x · Wᵀ + b, 0)` for `x, W : [4096, 4096]` and `b : [4096]`: a tiled
  kernel against the one-line contraction.

  The kernel walks a `2 × 4 × 8` grid. An output tile `[2048, 1024]` stays in place over the eight steps of the
  innermost axis: the first step zeroes it, every step adds the product of a `[2048, 512]` block of `x` with a
  `[1024, 512]` block of `W` (rows against rows, the operands passed through a narrower float format, which over the
  extended reals changes nothing), and the last step adds the bias row and takes the maximum with zero. The reference
  contracts the second axis of `x` and `W` in one operation, adds the bias spread down the rows and takes the
  maximum with a zero array.

  Entry `(r, q)` of both results is `max (∑ k < 4096, x (r, k) · W (q, k) + b q, 0)`: the kernel's eight partial sums
  are that sum cut into consecutive blocks of 512 terms, added up from `0`. The only laws used are that addition on the
  extended reals is commutative and associative and that `0` is neutral for it, so no input needs to be finite and the
  precondition is never opened.

  Each program's run, and the kernel's output array as the fold of each tile's eight steps, are imported generated
  modules; the kernel's three stored values and its input blocks read at an index, the fold unrolled, the blocked sum
  and the reference read at an index are the modules under Proof/.
-/
import proofs.«108534_j3977139716222_2_alg».proof.Defs
import proofs.«108534_j3977139716222_2_alg».proof.Proof.Gen.Kernel.Frame
import proofs.«108534_j3977139716222_2_alg».proof.Proof.Gen.KernelIdeal.Value
import proofs.«108534_j3977139716222_2_alg».proof.Proof.Gen.Pre_finite_inputs
import proofs.«108534_j3977139716222_2_alg».proof.Proof.Gen.ReferenceIdeal.Run
import proofs.«108534_j3977139716222_2_alg».proof.Proof.Bridge
import Idealize.ShloMosaic.Adequacy
import Idealize.ShloMosaic.Init

noncomputable section

namespace Cert.Proof

open Idealize.ShloMosaic Idealize.SL.Sem

/-- The idealized kernel terminates without a fault and leaves its arguments as they were: its value run, the result
    dropped. -/
theorem frame_KernelIdeal : frame_KernelIdeal := fun m ρ _ =>
  (θ_run Cert.KernelIdeal.defs _ _).mono (fun _ h c => (h c).2) (Cert.KernelIdeal.Value.run (F := Ideal) m ρ)

/-- The same for the reference. -/
theorem frame_ReferenceIdeal : frame_ReferenceIdeal := fun m ρ _ =>
  (θ_run Cert.ReferenceIdeal.defs _ _).mono (fun _ h c => (h c).2) (Cert.ReferenceIdeal.Value.run (F := Ideal) m ρ)

/-- Run from memories that agree on `x`, `W` and `b`, the kernel's output array and the reference's result are
    equal entry by entry over the extended reals: both are the dense layer cut off at zero. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact (Cert.ReferenceIdeal.Read.val_main_v5_eq _ _ _).trans (Cert.Bridge.result_eq m c)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
